-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S256x32 .f32) (main_arg10 : FVec F S32 .f32) (main_v33 : IVec S_ 1) : IVec S_ 1 :=
  let main_v34 : FVec F S256x32 .f32 := Host.absf main_arg9
  let main_cst_12 : FVec F S_ .f32 := constant S_ .f32 0x7F800000#32
  let main_v35 : FVec F S256x32 .f32 := broadcastInDim S256x32 ![] bcast_S_S256x32 main_cst_12
  let main_v36 : IVec S256x32 1 := cmpf .olt main_v34 main_v35
  let main_c_13 : IVec S_ 1 := constantI S_ 1 1#1
  let main_v37 : IVec S_ 1 := (fun x v => Host.reduce IntOp.andi x v reducesTo_S256x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S256x256 .f32) (main_arg7 : FVec F S256 .f32) (main_arg8 : FVec F S256x256 .f32) (main_arg9 : FVec F S256x32 .f32) (main_arg10 : FVec F S32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x32 .f32) (main_arg10 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S5000x256 : Shape := ⟨2, ![5000, 256]⟩
abbrev S5000x1 : Shape := ⟨2, ![5000, 1]⟩
abbrev S64x256 : Shape := ⟨2, ![64, 256]⟩
abbrev S64x1 : Shape := ⟨2, ![64, 1]⟩
abbrev S64x32 : Shape := ⟨2, ![64, 32]⟩
abbrev S1x32 : Shape := ⟨2, ![1, 32]⟩

abbrev nBuf : Space → Nat
  | .hbm => 70
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x32, .f32⟩
  | .hbm, ⟨10, _⟩ => ⟨S32, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000x1, .f32⟩
  | .hbm, ⟨17, _⟩ => ⟨S_, .f32⟩
  | .hbm, ⟨18, _⟩ => ⟨S50000x1, .f32⟩
  | .hbm, ⟨19, _⟩ => ⟨S800000x1, .i32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S_, .f32⟩
  | .hbm, ⟨31, _⟩ => ⟨S50000x256, .f32⟩
  | .hbm, ⟨32, _⟩ => ⟨S800000x1, .i32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S_, .f32⟩
  | .hbm, ⟨52, _⟩ => ⟨S64x256, .f32⟩
  | .hbm, ⟨53, _⟩ => ⟨S50000x1, .i32⟩
  | .hbm, ⟨54, _⟩ => ⟨S64x256, .f32⟩
  | .hbm, ⟨55, _⟩ => ⟨S_, .f32⟩
  | .hbm, ⟨56, _⟩ => ⟨S50000x1, .f32⟩
  | .hbm, ⟨57, _⟩ => ⟨S_, .f32⟩
  | .hbm, ⟨58, _⟩ => ⟨S64x1, .f32⟩
  | .hbm, ⟨59, _⟩ => ⟨S50000x1, .i32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S64x256, .f32⟩
  | .hbm, ⟨65, _⟩ => ⟨S64x256, .f32⟩
  | .hbm, ⟨66, _⟩ => ⟨S64x32, .f32⟩
  | .hbm, ⟨67, _⟩ => ⟨S1x32, .f32⟩
  | .hbm, ⟨68, _⟩ => ⟨S64x32, .f32⟩
  | .hbm, ⟨69, _⟩ => ⟨S64x32, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x1, .f32⟩
  | .local _ .vmem, ⟨5, _⟩ => ⟨S5000x1, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S5000x1, .f32⟩
  | .local _ .vmem, ⟨16, _⟩ => ⟨S5000x1, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S5000x256, .f32⟩
  | .local _ .vmem, ⟨21, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x256 : S_.BroadcastsInDim S50000x256 (![] : Fin 0 → Fin S50000x256.rank)
  shapeCasts_S256_S1x256 : S256.ShapeCasts S1x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S5000x1_S5000x256 : S5000x1.Broadcasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S64x256_S50000x1_S50000x256_1_0_0_1_wf : ScatterDims.WF S64x256 S50000x1 S50000x256 [1] [0] [0] 1
  scatter_S64x1_S50000x1_S50000x1_1_0_0_1_wf : ScatterDims.WF S64x1 S50000x1 S50000x1 [1] [0] [0] 1
  dot_S64x256_S256x32_S64x32_1_0_0_1_n_n_wf : DotDims.WF S64x256 S256x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S50000x256.size a
  hwx0_6 : ∀ i : grid0.Coords, EltTy.bits .f32 = 32 ∨ (Rect.block (s := S50000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S50000x256.size a
  hwx1_6 : ∀ i : grid1.Coords, EltTy.bits .f32 = 32 ∨ (Rect.block (s := S50000x256) S5000x256.size (cc1_transform_6 i) (hinb1_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S64x256 : Shape := ⟨2, ![64, 256]⟩
abbrev S64x1 : Shape := ⟨2, ![64, 1]⟩
abbrev S64x32 : Shape := ⟨2, ![64, 32]⟩
abbrev S1x32 : Shape := ⟨2, ![1, 32]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x32, .f32⟩
  | .hbm, ⟨10, _⟩ => ⟨S32, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S_, .f32⟩
  | .hbm, ⟨29, _⟩ => ⟨S800000x1, .f32⟩
  | .hbm, ⟨30, _⟩ => ⟨S_, .f32⟩
  | .hbm, ⟨31, _⟩ => ⟨S50000x1, .f32⟩
  | .hbm, ⟨32, _⟩ => ⟨S800000x1, .i32⟩
  | .hbm, ⟨33, _⟩ => ⟨S50000x1, .f32⟩
  | .hbm, ⟨34, _⟩ => ⟨S_, .f32⟩
  | .hbm, ⟨35, _⟩ => ⟨S50000x1, .f32⟩
  | .hbm, ⟨36, _⟩ => ⟨S50000x1, .f32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S1x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000x1, .f32⟩
  | .hbm, ⟨63, _⟩ => ⟨S_, .f32⟩
  | .hbm, ⟨64, _⟩ => ⟨S50000x1, .f32⟩
  | .hbm, ⟨65, _⟩ => ⟨S800000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S64x256, .f32⟩
  | .hbm, ⟨83, _⟩ => ⟨S50000x1, .i32⟩
  | .hbm, ⟨84, _⟩ => ⟨S64x256, .f32⟩
  | .hbm, ⟨85, _⟩ => ⟨S_, .f32⟩
  | .hbm, ⟨86, _⟩ => ⟨S50000x1, .f32⟩
  | .hbm, ⟨87, _⟩ => ⟨S_, .f32⟩
  | .hbm, ⟨88, _⟩ => ⟨S64x1, .f32⟩
  | .hbm, ⟨89, _⟩ => ⟨S50000x1, .i32⟩
  | .hbm, ⟨90, _⟩ => ⟨S64x1, .f32⟩
  | .hbm, ⟨91, _⟩ => ⟨S_, .f32⟩
  | .hbm, ⟨92, _⟩ => ⟨S64x1, .f32⟩
  | .hbm, ⟨93, _⟩ => ⟨S64x1, .f32⟩
  | .hbm, ⟨94, _⟩ => ⟨S64x256, .f32⟩
  | .hbm, ⟨95, _⟩ => ⟨S64x256, .f32⟩
  | .hbm, ⟨96, _⟩ => ⟨S64x32, .f32⟩
  | .hbm, ⟨97, _⟩ => ⟨S1x32, .f32⟩
  | .hbm, ⟨98, _⟩ => ⟨S64x32, .f32⟩
  | .hbm, ⟨99, _⟩ => ⟨S64x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []
  scatter_S64x256_S50000x1_S50000x256_1_0_0_1_wf : ScatterDims.WF S64x256 S50000x1 S50000x256 [1] [0] [0] 1
  scatter_S64x1_S50000x1_S50000x1_1_0_0_1_wf : ScatterDims.WF S64x1 S50000x1 S50000x1 [1] [0] [0] 1
  dot_S64x256_S256x32_S64x32_1_0_0_1_n_n_wf : DotDims.WF S64x256 S256x32 S64x32 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x256_S256x32_S64x32_1_0_0_1_n_n : DotDims S64x256 S256x32 S64x32 where
  lhsContracting := [1]
  rhsContracting := [0]
  lhsNonContracting := [0]
  rhsNonContracting := [1]
  lhsBatch := []
  rhsBatch := []
  wf := dot_S64x256_S256x32_S64x32_1_0_0_1_n_n_wf

class Facts : Prop extends Facts₀ where

variable [Facts]
-- ==== Proof.KernelRun.lean ====
/-
  The kernel program's run with its result named.

  The program is five stretches in a row: host operations, the first layer's kernel, host operations, the second
  layer's kernel, host operations. Every weakly fair execution runs them in that order, and the buffers after each
  stretch are a function of the buffers before it; `W5 m ρ c` is the composition of the five on core c from the
  launch memory m. So the run ends with the result buffer at `W5 m ρ c` read at it, and with the eleven argument
  arrays as launched (no stretch writes one).
-/
import proofs.«136412_j13889924235783_1_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    composed contents `W5` and the argument arrays as launched. -/
theorem run_result : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Sage.Run

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«136412_j13889924235783_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibLayer.lean ====
/-
  One dense layer computed on a block of rows is the host's layer at those rows.

  A graph-convolution layer sends a node-feature array X [N, K] and an aggregated-message array M [N, K] to
  M · Wrel + X · Wroot + b (a bias row repeated down the rows), optionally followed by the rectifier max(·, 0). A
  tiled kernel computes it on a block of R rows at a time, with the two weight matrices and the bias row whole.
  On the extended reals the entry (p, q) of the block's result is the entry (P, q) of the host's layer on the whole
  arrays whenever row p of each block operand is row P of the whole operand: each product is the sum over the same K
  terms, and addition, the bias and the maximum with zero are entrywise. The same for a plain linear layer
  X · W + b. A change of float format is the identity on the extended reals, so the operands' formats are free.
-/
import proofs.«136412_j13889924235783_1_alg».proof.Proof.LibMatmulAt
import proofs.«136412_j13889924235783_1_alg».proof.Proof.LibHostDot
import proofs.«136412_j13889924235783_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayer

open Idealize.ShloMosaic Idealize.ShloMosaic.ValueIdx Cert.LibPlainDot

/-- The host's plain product [R, K] × [K, C], for any record of dimension numbers with the six lists of such a
    product, read at (p, q): the sum over k of the left operand at (p, k) times the right at (k, q). -/
theorem hostDot_record_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    Host.dotGeneral (F := Ideal) D prec l r (ix2 p q) = ∑ k : Fin K, l (ix2 p k) * r (ix2 k q) := by
  obtain ⟨lc, rc, ln, rn, lb, rb, wf⟩ := D
  dsimp only at hlc hrc hln hrn hlb hrb
  subst hlc hrc hln hrn hlb hrb
  exact Cert.LibHostDot.hostDot_apply wf prec l r p q

section
variable {R K C N : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- A row block's product into the zero accumulator at (p, q) is the host's whole product at (P, q), when the
    block's row p is the array's row P and the right operands agree down column q. -/
theorem block_dot_apply {φ₁ φ₂ ψ₁ ψ₂ : FTy} (prec prec' : Option ContractPrecision)
    (a : FVec Ideal ⟨2, ![R, K]⟩ φ₁) (w : FVec Ideal ⟨2, ![K, C]⟩ φ₂)
    (A : FVec Ideal ⟨2, ![N, K]⟩ ψ₁) (W : FVec Ideal ⟨2, ![K, C]⟩ ψ₂)
    (p : Fin R) (P : Fin N) (q : Fin C)
    (ha : ∀ k : Fin K, (a (ix2 p k) : EReal) = A (ix2 P k))
    (hw : ∀ k : Fin K, (w (ix2 k q) : EReal) = W (ix2 k q)) :
    matmul Dk prec a w (constant (F := Ideal) ⟨2, ![R, C]⟩ .f32 0x00000000#32) (ix2 p q)
      = Host.dotGeneral (F := Ideal) Dh prec' A W (ix2 P q) := by
  rw [Cert.LibMatmulAt.matmul_zero_apply Dk klc krc kln krn klb krb,
    hostDot_record_apply Dh hlc hrc hln hrn hlb hrb]
  exact Finset.sum_congr rfl fun k _ => by rw [ha k, hw k]

/-- The layer M · Wrel + X · Wroot + b on a row block, at (p, q), is the host's layer on the whole arrays at (P, q). -/
theorem gconv_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc) (ix2 p q)
    = addf (addf (Host.dotGeneral (F := Ideal) Dh none A1 W1) (Host.dotGeneral (F := Ideal) Dh none A2 W2))
        (broadcastInDim ⟨2, ![N, C]⟩ ![0, 1] hbi Brow) (ix2 P q) := by
  rw [addf_apply, addf_apply, addf_apply, addf_apply,
    block_dot_apply Dk klc krc kln krn klb krb Dh hlc hrc hln hrn hlb hrb none none a1 w1 A1 W1 p P q h1 hw1,
    block_dot_apply Dk klc krc kln krn klb krb Dh hlc hrc hln hrn hlb hrb none none a2 w2 A2 W2 p P q h2 hw2,
    broadcastTo_1b_ab_apply, Cert.LibColumn.bcastInDim_1b_ab_apply, hb]

/-- The same layer followed by the rectifier: the maximum with zero is entrywise, and the kernel's splat of the zero
    word and the host's broadcast of the zero constant both read zero everywhere. -/
theorem gconv_relu_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (hbs : (⟨0, ![]⟩ : Shape).BroadcastsInDim ⟨2, ![N, C]⟩ (![] : Fin 0 → Fin 2))
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    maximumf (addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc))
      (broadcast ⟨2, ![R, C]⟩ (Scalar.ofBits (F := Ideal) .f32 0x00000000#32)) (ix2 p q)
    = maximumf (addf (addf (Host.dotGeneral (F := Ideal) Dh none A1 W1) (Host.dotGeneral (F := Ideal) Dh none A2 W2))
        (broadcastInDim ⟨2, ![N, C]⟩ ![0, 1] hbi Brow))
        (broadcastInDim ⟨2, ![N, C]⟩ ![] hbs (constant (F := Ideal) ⟨0, ![]⟩ .f32 0x00000000#32)) (ix2 P q) := by
  rw [maximumf_apply, maximumf_apply,
    gconv_block_apply Dk klc krc kln krn klb krb Dh hlc hrc hln hrn hlb hrb a1 w1 a2 w2 brow hbc A1 A2 W1 W2 Brow hbi
      p P q h1 hw1 h2 hw2 hb,
    broadcast_apply, Cert.LibColumn.bcastInDim_scalar_apply _ _ _ (fun d => d.elim0)]
  rfl

/-- A linear layer X · W + b on a row block, at (p, q), is the host's layer on the whole arrays at (P, q). -/
theorem linear_block_apply {φ₁ φ₂ : FTy}
    (a : FVec Ideal ⟨2, ![R, K]⟩ φ₁) (w : FVec Ideal ⟨2, ![K, C]⟩ φ₂)
    (brow : FVec Ideal ⟨2, ![1, C]⟩ .f32) (hbc : (⟨2, ![1, C]⟩ : Shape).Broadcasts ⟨2, ![R, C]⟩)
    (A : FVec Ideal ⟨2, ![N, K]⟩ .f32) (W : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (ha : ∀ k : Fin K, (a (ix2 p k) : EReal) = A (ix2 P k))
    (hw : ∀ k : Fin K, (w (ix2 k q) : EReal) = W (ix2 k q))
    (hb : brow (ix2 (0 : Fin 1) q) = Brow (ix2 (0 : Fin 1) q)) :
    addf (matmul Dk none a w (constant (F := Ideal) ⟨2, ![R, C]⟩ .f32 0x00000000#32))
      (broadcastTo ⟨2, ![R, C]⟩ brow hbc) (ix2 p q)
    = addf (Host.dotGeneral (F := Ideal) Dh none A W) (broadcastInDim ⟨2, ![N, C]⟩ ![0, 1] hbi Brow) (ix2 P q) := by
  rw [addf_apply, addf_apply,
    block_dot_apply Dk klc krc kln krn klb krb Dh hlc hrc hln hrn hlb hrb none none a w A W p P q ha hw,
    broadcastTo_1b_ab_apply, Cert.LibColumn.bcastInDim_1b_ab_apply, hb]

end

end Cert.LibLayer

end
-- ==== Proof.LibMeanLayer.lean ====
/-
  One layer of a mean-aggregating graph convolution computed on a block of rows is the host's layer at those rows.

  The layer sends the node features X [N, K], the per-node sums S [N, K] of the neighbours' features and the degree
  column Cn [N, 1] to  max( (S / max(Cn, u)) · Wl + b + X · Wr , z ): the quotient is taken entry by entry against the
  degree column stretched along the features, b is a row stretched down the nodes, u and z are constants. A tiled
  kernel computes, on a block of R rows with the weights and the bias row whole,
  max( (s / max(cn, u)) · Wl + x · Wr + b , z ), its matrix operands passed through a change of float format. On the
  extended reals the entry (p, q) of the block's result is the entry (P, q) of the host's layer whenever row p of each
  block operand is row P of the whole operand: the quotient and the maximum are entrywise, each product is the sum
  over the same K terms, a change of format is the identity, and the three summands are added in another order,
  which a commutative and associative addition does not see. No finiteness is asked.
-/
import proofs.«136412_j13889924235783_1_alg».proof.Proof.LibLayer

noncomputable section

open scoped BigOperators

namespace Cert.LibMeanLayer

open Idealize.ShloMosaic Idealize.ShloMosaic.ValueIdx

/-- The mean aggregation at an entry: the block's quotient by its stretched, floored degree column at (p, k) is the
    host's at (P, k), when the block's row p is the arrays' row P. -/
theorem mean_block_apply {R N K : ℕ} (w : BitVec 32)
    (sb : FVec Ideal ⟨2, ![R, K]⟩ .f32) (cb : FVec Ideal ⟨2, ![R, 1]⟩ .f32)
    (hbc : (⟨2, ![R, 1]⟩ : Shape).Broadcasts ⟨2, ![R, K]⟩)
    (S : FVec Ideal ⟨2, ![N, K]⟩ .f32) (Cn : FVec Ideal ⟨2, ![N, 1]⟩ .f32)
    (hbi : (⟨2, ![N, 1]⟩ : Shape).BroadcastsInDim ⟨2, ![N, K]⟩ ![0, 1])
    (hbs : (⟨0, ![]⟩ : Shape).BroadcastsInDim ⟨2, ![N, 1]⟩ (![] : Fin 0 → Fin 2))
    (p : Fin R) (P : Fin N) (k : Fin K)
    (hs : sb (ix2 p k) = S (ix2 P k)) (hc : cb (ix2 p (0 : Fin 1)) = Cn (ix2 P (0 : Fin 1))) :
    divf sb (broadcastTo ⟨2, ![R, K]⟩ (maximumf cb (broadcast ⟨2, ![R, 1]⟩ (Scalar.ofBits (F := Ideal) .f32 w))) hbc) (ix2 p k)
      = Host.divf (F := Ideal) S (broadcastInDim ⟨2, ![N, K]⟩ ![0, 1] hbi
          (maximumf Cn (broadcastInDim ⟨2, ![N, 1]⟩ ![] hbs (constant (F := Ideal) ⟨0, ![]⟩ .f32 w)))) (ix2 P k) := by
  rw [divf_apply, Cert.LibColumn.broadcastTo_a1_ab_apply, maximumf_apply, broadcast_apply]
  show _ = Ideal.div (S (ix2 P k)) (broadcastInDim ⟨2, ![N, K]⟩ ![0, 1] hbi
          (maximumf Cn (broadcastInDim ⟨2, ![N, 1]⟩ ![] hbs (constant (F := Ideal) ⟨0, ![]⟩ .f32 w))) (ix2 P k))
  rw [Cert.LibColumn.bcastInDim_a1_ab_apply, maximumf_apply,
    Cert.LibColumn.bcastInDim_scalar_apply _ _ _ (fun d => d.elim0), hs, hc]
  rfl

section
variable {R K C N : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- The layer on a row block, at (p, q), is the host's layer on the whole arrays at (P, q). The block's summands are
    (aggregate · Wl + x · Wr) + b, the host's (aggregate · Wl + b) + x · Wr. -/
theorem mean_layer_block_apply (u z : BitVec 32) (h16 : (FTy.bf16).bits < (FTy.f32).bits)
    (xb sb : FVec Ideal ⟨2, ![R, K]⟩ .f32) (cb : FVec Ideal ⟨2, ![R, 1]⟩ .f32)
    (wl wr : FVec Ideal ⟨2, ![K, C]⟩ .f32) (brow : FVec Ideal ⟨2, ![1, C]⟩ .f32)
    (hbc : (⟨2, ![R, 1]⟩ : Shape).Broadcasts ⟨2, ![R, K]⟩) (hbc2 : (⟨2, ![1, C]⟩ : Shape).Broadcasts ⟨2, ![R, C]⟩)
    (X S : FVec Ideal ⟨2, ![N, K]⟩ .f32) (Cn : FVec Ideal ⟨2, ![N, 1]⟩ .f32)
    (Wl Wr : FVec Ideal ⟨2, ![K, C]⟩ .f32) (Brow : FVec Ideal ⟨2, ![1, C]⟩ .f32)
    (hbi : (⟨2, ![N, 1]⟩ : Shape).BroadcastsInDim ⟨2, ![N, K]⟩ ![0, 1])
    (hbs : (⟨0, ![]⟩ : Shape).BroadcastsInDim ⟨2, ![N, 1]⟩ (![] : Fin 0 → Fin 2))
    (hbi2 : (⟨2, ![1, C]⟩ : Shape).BroadcastsInDim ⟨2, ![N, C]⟩ ![0, 1])
    (hbs0 : (⟨0, ![]⟩ : Shape).BroadcastsInDim ⟨2, ![N, C]⟩ (![] : Fin 0 → Fin 2))
    (p : Fin R) (P : Fin N) (q : Fin C)
    (hx : ∀ k : Fin K, xb (ix2 p k) = X (ix2 P k))
    (hs : ∀ k : Fin K, sb (ix2 p k) = S (ix2 P k))
    (hc : cb (ix2 p (0 : Fin 1)) = Cn (ix2 P (0 : Fin 1)))
    (hwl : ∀ k : Fin K, wl (ix2 k q) = Wl (ix2 k q))
    (hwr : ∀ k : Fin K, wr (ix2 k q) = Wr (ix2 k q))
    (hb : brow (ix2 (0 : Fin 1) q) = Brow (ix2 (0 : Fin 1) q)) :
    maximumf
        (addf
          (addf
            (matmul Dk none
              (truncf .bf16 (divf sb (broadcastTo ⟨2, ![R, K]⟩
                (maximumf cb (broadcast ⟨2, ![R, 1]⟩ (Scalar.ofBits (F := Ideal) .f32 u))) hbc)) h16)
              (truncf .bf16 wl h16) (constant (F := Ideal) ⟨2, ![R, C]⟩ .f32 0x00000000#32))
            (matmul Dk none (truncf .bf16 xb h16) (truncf .bf16 wr h16)
              (constant (F := Ideal) ⟨2, ![R, C]⟩ .f32 0x00000000#32)))
          (broadcastTo ⟨2, ![R, C]⟩ brow hbc2))
        (broadcast ⟨2, ![R, C]⟩ (Scalar.ofBits (F := Ideal) .f32 z)) (ix2 p q)
      = maximumf
        (addf
          (addf
            (Host.dotGeneral (F := Ideal) Dh none
              (Host.divf (F := Ideal) S (broadcastInDim ⟨2, ![N, K]⟩ ![0, 1] hbi
                (maximumf Cn (broadcastInDim ⟨2, ![N, 1]⟩ ![] hbs (constant (F := Ideal) ⟨0, ![]⟩ .f32 u)))))
              Wl)
            (broadcastInDim ⟨2, ![N, C]⟩ ![0, 1] hbi2 Brow))
          (Host.dotGeneral (F := Ideal) Dh none X Wr))
        (broadcastInDim ⟨2, ![N, C]⟩ ![] hbs0 (constant (F := Ideal) ⟨0, ![]⟩ .f32 z)) (ix2 P q) := by
  rw [maximumf_apply, maximumf_apply, addf_apply, addf_apply, addf_apply, addf_apply,
    Cert.LibLayer.block_dot_apply Dk klc krc kln krn klb krb Dh hlc hrc hln hrn hlb hrb none none _ _ _ Wl p P q
      (fun k => (truncf_apply _ h16 _).trans (mean_block_apply u sb cb hbc S Cn hbi hbs p P k (hs k) hc))
      (fun k => (truncf_apply wl h16 _).trans (hwl k)),
    Cert.LibLayer.block_dot_apply Dk klc krc kln krn klb krb Dh hlc hrc hln hrn hlb hrb none none _ _ X Wr p P q
      (fun k => (truncf_apply xb h16 _).trans (hx k))
      (fun k => (truncf_apply wr h16 _).trans (hwr k)),
    broadcastTo_1b_ab_apply, Cert.LibColumn.bcastInDim_1b_ab_apply, hb, broadcast_apply,
    Cert.LibColumn.bcastInDim_scalar_apply _ _ _ (fun d => d.elim0), add_right_comm]
  rfl

end

end Cert.LibMeanLayer

end
-- ==== Proof.SageSpec.lean ====
/-
  The network both programs compute, as one function of the eleven arguments, on the extended reals.

  Nodes carry 256 features. From the edge list e (row 0 the sources, row 1 the destinations, 800000 edges) come
  the gather positions `srcIx e` (a negative source index wrapped by 50000) and the scatter positions `dstIx e`.
  `aggSum h e` adds, into a zero array, row src(j) of h at row dst(j) for every edge j; `cnt e` adds 1 at row dst(j)
  for every edge j, the in-degree of every node as a column.
  One layer sends the node features h, a row-sum array s and the degree column cn to
        max( (s / max(cn, 1)) · Wl + b + h · Wr , 0 ),
  the quotient taken row by row against the degree column stretched along the features, b a row stretched down the
  nodes. The network is two layers (the second on the first one's output, both with the same edges), then a pooling
  over the 64 graphs: the rows of the last features summed per graph (`batch` names each node's graph), divided by
  max(nodes per graph, 1), times Wc, plus bc.
-/
import proofs.«136412_j13889924235783_1_alg».proof.ReferenceIdeal
import proofs.«136412_j13889924235783_1_alg».proof.Proof.Gen.ReferenceIdeal
import Idealize.ShloMosaic.PureOps.Ideal

noncomputable section

namespace Cert.Sage

open Idealize.ShloMosaic Cert.ReferenceIdeal Cert.ReferenceIdeal.Facts₀

/-- Row 0 of the edge list: the edges' sources. -/
def srcRow (e : IVec S2x800000 32) : IVec S800000 32 :=
  shapeCast _ (extractStridedSlice S1x800000 ![0, 0] e slices_S2x800000_S1x800000_0_0) shapeCasts_S1x800000_S800000

/-- Row 1 of the edge list: the edges' destinations. -/
def dstRow (e : IVec S2x800000 32) : IVec S800000 32 :=
  shapeCast _ (extractStridedSlice S1x800000 ![1, 0] e slices_S2x800000_S1x800000_1_0) shapeCasts_S1x800000_S800000

/-- A row of destinations as a column of scatter positions. -/
def dstCol (d : IVec S800000 32) : IVec S800000x1 32 := broadcastInDim S800000x1 ![0] bcast_S800000_S800000x1_0 d

/-- A row of sources, a negative entry wrapped by the number of nodes, as a column of gather positions. -/
def srcCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter positions of the edge list. -/
def dstIx (e : IVec S2x800000 32) : IVec S800000x1 32 := dstCol (dstRow e)

/-- The gather positions of the edge list. -/
def srcIx (e : IVec S2x800000 32) : IVec S800000x1 32 := srcCol (srcRow e)

/-- The sum over the edges into each node: row src(j) of `h` added at row dst(j), from zero. -/
def aggSum (h : FVec Ideal S50000x256 .f32) (e : IVec S2x800000 32) : FVec Ideal S50000x256 .f32 :=
  Host.scatterAdd scatter_S50000x256_S800000x1_S800000x256_1_0_0_1
    (broadcastInDim S50000x256 ![] bcast_S_S50000x256 (constant S_ .f32 0x00000000#32))
    (dstIx e)
    (Host.gather gather_S50000x256_S800000x1_S800000x256_1_0_n_n_0_1_1256 h (srcIx e))

/-- The in-degree of each node, as a column: 1 added at row dst(j) for every edge j, from zero. -/
def cnt (e : IVec S2x800000 32) : FVec Ideal S50000x1 .f32 :=
  Host.scatterAdd scatter_S50000x1_S800000x1_S800000x1_1_0_0_1
    (broadcastInDim S50000x1 ![] bcast_S_S50000x1 (constant S_ .f32 0x00000000#32))
    (dstIx e)
    (broadcastInDim S800000x1 ![] bcast_S_S800000x1 (constant S_ .f32 0x3F800000#32))

/-- One layer: max((s / max(cn, 1)) · Wl + b + h · Wr, 0), `b` given as a row. -/
def layer (h s : FVec Ideal S50000x256 .f32) (cn : FVec Ideal S50000x1 .f32) (Wl : FVec Ideal S256x256 .f32)
    (brow : FVec Ideal S1x256 .f32) (Wr : FVec Ideal S256x256 .f32) : FVec Ideal S50000x256 .f32 :=
  maximumf
    (addf
      (addf
        (Host.dotGeneral dot_S50000x256_S256x256_S50000x256_1_0_0_1_n_n none
          (Host.divf s (broadcastInDim S50000x256 ![0, 1] bcast_S50000x1_S50000x256_0_1
            (maximumf cn (broadcastInDim S50000x1 ![] bcast_S_S50000x1 (constant S_ .f32 0x3F800000#32)))))
          Wl)
        (broadcastInDim S50000x256 ![0, 1] bcast_S1x256_S50000x256_0_1 brow))
      (Host.dotGeneral dot_S50000x256_S256x256_S50000x256_1_0_0_1_n_n none h Wr))
    (broadcastInDim S50000x256 ![] bcast_S_S50000x256 (constant S_ .f32 0x00000000#32))

/-- A bias vector as a row. -/
def rowOf (b : FVec Ideal S256 .f32) : FVec Ideal S1x256 .f32 := broadcastInDim S1x256 ![1] bcast_S256_S1x256_1 b

/-- The pooling over the graphs and the last linear map. -/
def pool (h : FVec Ideal S50000x256 .f32) (batch : IVec S50000 32) (Wc : FVec Ideal S256x32 .f32) (bc : FVec Ideal S32 .f32) :
    FVec Ideal S64x32 .f32 :=
  addf
    (Host.dotGeneral dot_S64x256_S256x32_S64x32_1_0_0_1_n_n none
      (Host.divf
        (Host.scatterAdd scatter_S64x256_S50000x1_S50000x256_1_0_0_1
          (broadcastInDim S64x256 ![] bcast_S_S64x256 (constant S_ .f32 0x00000000#32))
          (broadcastInDim S50000x1 ![0] bcast_S50000_S50000x1_0 batch) h)
        (broadcastInDim S64x256 ![0, 1] bcast_S64x1_S64x256_0_1
          (maximumf
            (Host.scatterAdd scatter_S64x1_S50000x1_S50000x1_1_0_0_1
              (broadcastInDim S64x1 ![] bcast_S_S64x1 (constant S_ .f32 0x00000000#32))
              (broadcastInDim S50000x1 ![0] bcast_S50000_S50000x1_0 batch)
              (broadcastInDim S50000x1 ![] bcast_S_S50000x1 (constant S_ .f32 0x3F800000#32)))
            (broadcastInDim S64x1 ![] bcast_S_S64x1 (constant S_ .f32 0x3F800000#32)))))
      Wc)
    (broadcastInDim S64x32 ![0, 1] bcast_S1x32_S64x32_0_1 (broadcastInDim S1x32 ![1] bcast_S32_S1x32_1 bc))

/-- The first layer's output. -/
def hidden (x : FVec Ideal S50000x256 .f32) (e : IVec S2x800000 32) (W1l : FVec Ideal S256x256 .f32)
    (b1 : FVec Ideal S256 .f32) (W1r : FVec Ideal S256x256 .f32) : FVec Ideal S50000x256 .f32 :=
  layer x (aggSum x e) (cnt e) W1l (rowOf b1) W1r

/-- The whole network. -/
def net (x : FVec Ideal S50000x256 .f32) (e : IVec S2x800000 32) (batch : IVec S50000 32)
    (W1l : FVec Ideal S256x256 .f32) (b1 : FVec Ideal S256 .f32) (W1r : FVec Ideal S256x256 .f32)
    (W2l : FVec Ideal S256x256 .f32) (b2 : FVec Ideal S256 .f32) (W2r : FVec Ideal S256x256 .f32)
    (Wc : FVec Ideal S256x32 .f32) (bc : FVec Ideal S32 .f32) : FVec Ideal S64x32 .f32 :=
  pool (layer (hidden x e W1l b1 W1r) (aggSum (hidden x e W1l b1 W1r) e) (cnt e) W2l (rowOf b2) W2r) batch Wc bc

end Cert.Sage

end
-- ==== Proof.Layer1Array.lean ====
/-
  What layer 1's kernel leaves in its output array: the host's layer of the arrays the kernel finds.

  The kernel runs over 10 blocks of 5000 node rows. At a block it reads the block's rows of the features, of the
  neighbour sums and of the degree column, the two weight matrices and the bias row whole, and writes back the block's
  rows of max((s / max(cn, 1)) · Wl + x · Wr + b, 0). Row p of block t is row 5000·t + p of the arrays, so what block
  t writes back is block t of `Cert.Sage.layer` of the whole arrays (the law is `Cert.LibMeanLayer`'s), and the ten
  blocks tile the 50000 rows: the output array ends holding `Cert.Sage.layer` of the arrays as the kernel found them.
-/
import proofs.«136412_j13889924235783_1_alg».proof.Proof.Gen.KernelIdeal.Frame
import proofs.«136412_j13889924235783_1_alg».proof.Proof.LibMeanLayer
import proofs.«136412_j13889924235783_1_alg».proof.Proof.SageSpec
import Idealize.ShloMosaic.Lib.Pipeline.Value
import Idealize.ShloMosaic.Lib.ValueIdx

set_option maxRecDepth 16384

noncomputable section

namespace Cert.Sage.Layer1

open Idealize.ShloMosaic Idealize.ShloMosaic.TcCoe Idealize.ShloMosaic.ValueIdx Idealize.SL.Sem
open Cert.KernelIdeal Cert.KernelIdeal.Gen
open Idealize.ShloMosaic.Pipeline (Dat)

theorem hz : (![0, 0] : Fin 2 → Nat) = fun _ => 0 := funext fun a => by fin_cases a <;> rfl

/-- The block's payload at (p, q) is the host's layer at (P, q), when row p of each loaded block is row P of its array
    and the weights and the bias row are loaded whole. -/
theorem pay_apply (v0 : Vec Ideal S5000x1 .f32) (v4 v8 : Vec Ideal S5000x256 .f32) (v11 v13 : Vec Ideal S256x256 .f32)
    (v18 : Vec Ideal S1x256 .f32)
    (X S : FVec Ideal S50000x256 .f32) (Cn : FVec Ideal S50000x1 .f32) (Wl Wr : FVec Ideal S256x256 .f32)
    (Brow : FVec Ideal S1x256 .f32) (p : Fin 5000) (P : Fin 50000) (q : Fin 256)
    (hx : ∀ k : Fin 256, v8 (ix2 p k) = X (ix2 P k)) (hs : ∀ k : Fin 256, v4 (ix2 p k) = S (ix2 P k))
    (hc : v0 (ix2 p (0 : Fin 1)) = Cn (ix2 P (0 : Fin 1)))
    (hwl : ∀ k : Fin 256, v11 (ix2 k q) = Wl (ix2 k q)) (hwr : ∀ k : Fin 256, v13 (ix2 k q) = Wr (ix2 k q))
    (hb : v18 (ix2 (0 : Fin 1) q) = Brow (ix2 (0 : Fin 1) q)) :
    k0_pay1 (F := Ideal) v0 v4 v8 v11 v13 v18 (ix2 p q) = Cert.Sage.layer X S Cn Wl Brow Wr (ix2 P q) := by
  unfold k0_pay1 Cert.Sage.layer
  exact Cert.LibMeanLayer.mean_layer_block_apply (R := 5000) (K := 256) (C := 256) (N := 50000)
    dot_S5000x256_S256x256_S5000x256_1_0_0_1_n_n rfl rfl rfl rfl rfl rfl
    Cert.ReferenceIdeal.dot_S50000x256_S256x256_S50000x256_1_0_0_1_n_n rfl rfl rfl rfl rfl rfl
    0x3F800000#32 0x00000000#32 _ v8 (shapeCast S5000x256 v4 _) (shapeCast S5000x1 v0 _) v11 v13 (shapeCast S1x256 v18 _) _ _
    X S Cn Wl Wr Brow _ _ _ _ p P q
    (fun k => hx k)
    (fun k => (congrFun (shapeCast_self v4 _) _).trans (hs k))
    ((congrFun (shapeCast_self v0 _) _).trans hc) hwl hwr
    ((congrFun (shapeCast_self v18 _) _).trans hb)

/-- The printed index maps, decided over the ten blocks: the three row-blocked inputs move with the output, the weights
    and the bias row stay at block (0, 0), and the output's block row is below 10. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every block row is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

variable (V : (c : Dev nD) → (b : Ref sig .tc) → Buf (Elt Ideal) ((c : Thread nD τ).loc b))

/-- What point `t` writes back is block `t` of the host's layer of the arrays as the kernel finds them. -/
theorem flushed_eq (c : Dev nD) (t : Fin cfg0.N) :
    (dat0 V c).flushed 6 t = ((cfg0.win 6).blk t).view.read (Elt Ideal)
      (Cert.Sage.layer (V c main_arg0) (V c main_v17) (V c main_v7) (V c main_arg3) (V c main_v18) (V c main_arg5)) := by
  show (cfg0.win 6).cut (grid0.coords t) ((dat0 V c).after 6 t) = _
  rw [after0_6]
  unfold out0_6
  rw [View.canon_unit_zero hz]
  simp only [View.ld_unit_zero (S := S5000x256) hz, View.ld_unit_zero (S := S5000x1) hz,
    View.ld_unit_zero (S := S256x256) hz, View.ld_unit_zero (S := S1x256) hz]
  obtain ⟨e00, e01, e10, e11, e20, e21, e30, e31, e40, e41, e50, e51, e6le, e61⟩ := idx_facts t
  funext y
  obtain ⟨p, q, rfl⟩ : ∃ (p : Fin 5000) (q : Fin 256), y = ix2 p q := ⟨y 0, y 1, eq_ix2 y⟩
  have hp : p.val < 5000 := p.isLt
  have hP : win0_6.index t (0 : Fin 2) * 5000 + p.val < 50000 := by omega
  have hemb : ((cfg0.win 6).blk t).view.emb (ix2 p q)
      = ix2 (⟨win0_6.index t (0 : Fin 2) * 5000 + p.val, hP⟩ : Fin 50000) q := by
    funext a; apply Fin.ext
    match a with
    | ⟨0, _⟩ => show win0_6.index t (0 : Fin 2) * 5000 + 1 * p.val = win0_6.index t (0 : Fin 2) * 5000 + p.val; omega
    | ⟨1, _⟩ => show win0_6.index t (1 : Fin 2) * 256 + 1 * q.val = q.val; omega
  show k0_pay1 (iblk0 V c 2 t) (iblk0 V c 1 t) (iblk0 V c 0 t) (iblk0 V c 3 t) (iblk0 V c 5 t) (iblk0 V c 4 t) (ix2 p q)
    = Cert.Sage.layer (V c main_arg0) (V c main_v17) (V c main_v7) (V c main_arg3) (V c main_v18) (V c main_arg5)
        (((cfg0.win 6).blk t).view.emb (ix2 p q))
  rw [hemb]
  refine pay_apply (iblk0 V c 2 t) (iblk0 V c 1 t) (iblk0 V c 0 t) (iblk0 V c 3 t) (iblk0 V c 5 t) (iblk0 V c 4 t)
    (V c main_arg0) (V c main_v17) (V c main_v7) (V c main_arg3) (V c main_arg5) (V c main_v18) p ⟨_, hP⟩ q ?_ ?_ ?_ ?_ ?_ ?_
  · intro k
    show V c main_arg0 (((cfg0.win 0).blk t).view.emb (ix2 p k)) = V c main_arg0 (ix2 (⟨_, hP⟩ : Fin 50000) k)
    refine congrArg (V c main_arg0) ?_
    funext a; apply Fin.ext
    match a with
    | ⟨0, _⟩ => show win0_0.index t (0 : Fin 2) * 5000 + 1 * p.val = win0_6.index t (0 : Fin 2) * 5000 + p.val; omega
    | ⟨1, _⟩ => show win0_0.index t (1 : Fin 2) * 256 + 1 * k.val = k.val; omega
  · intro k
    show V c main_v17 (((cfg0.win 1).blk t).view.emb (ix2 p k)) = V c main_v17 (ix2 (⟨_, hP⟩ : Fin 50000) k)
    refine congrArg (V c main_v17) ?_
    funext a; apply Fin.ext
    match a with
    | ⟨0, _⟩ => show win0_1.index t (0 : Fin 2) * 5000 + 1 * p.val = win0_6.index t (0 : Fin 2) * 5000 + p.val; omega
    | ⟨1, _⟩ => show win0_1.index t (1 : Fin 2) * 256 + 1 * k.val = k.val; omega
  · show V c main_v7 (((cfg0.win 2).blk t).view.emb (ix2 p (0 : Fin 1))) = V c main_v7 (ix2 (⟨_, hP⟩ : Fin 50000) (0 : Fin 1))
    refine congrArg (V c main_v7) ?_
    funext a; apply Fin.ext
    match a with
    | ⟨0, _⟩ => show win0_2.index t (0 : Fin 2) * 5000 + 1 * p.val = win0_6.index t (0 : Fin 2) * 5000 + p.val; omega
    | ⟨1, _⟩ => show win0_2.index t (1 : Fin 2) * 1 + 1 * 0 = 0; omega
  · intro k
    show V c main_arg3 (((cfg0.win 3).blk t).view.emb (ix2 k q)) = V c main_arg3 (ix2 k q)
    refine congrArg (V c main_arg3) ?_
    funext a; apply Fin.ext
    match a with
    | ⟨0, _⟩ => show win0_3.index t (0 : Fin 2) * 256 + 1 * k.val = k.val; omega
    | ⟨1, _⟩ => show win0_3.index t (1 : Fin 2) * 256 + 1 * q.val = q.val; omega
  · intro k
    show V c main_arg5 (((cfg0.win 5).blk t).view.emb (ix2 k q)) = V c main_arg5 (ix2 k q)
    refine congrArg (V c main_arg5) ?_
    funext a; apply Fin.ext
    match a with
    | ⟨0, _⟩ => show win0_5.index t (0 : Fin 2) * 256 + 1 * k.val = k.val; omega
    | ⟨1, _⟩ => show win0_5.index t (1 : Fin 2) * 256 + 1 * q.val = q.val; omega
  · show V c main_v18 (((cfg0.win 4).blk t).view.emb (ix2 (0 : Fin 1) q)) = V c main_v18 (ix2 (0 : Fin 1) q)
    refine congrArg (V c main_v18) ?_
    funext a; apply Fin.ext
    match a with
    | ⟨0, _⟩ => show win0_4.index t (0 : Fin 2) * 1 + 1 * 0 = 0; omega
    | ⟨1, _⟩ => show win0_4.index t (1 : Fin 2) * 256 + 1 * q.val = q.val; omega

/-- An index of the output array is in point `t`'s block iff each coordinate is in the block's range on its axis. -/
theorem mem_blk (t : Fin cfg0.N) (i : S50000x256.Idx) :
    i ∈ ((cfg0.win 6).blk t).view.set ↔ ∀ a : Fin 2, win0_6.index t a * S5000x256.size a ≤ (i a).val
      ∧ (i a).val < win0_6.index t a * S5000x256.size a + S5000x256.size a := by
  show i ∈ ((View.whole main_v19).slice (win0_6.rect t)).set ↔ _
  rw [View.set_slice_whole, Rect.mem_set_unit]
  exact Iff.rfl

/-- The ten blocks tile the array: row r is in block r / 5000. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 256 ≤ (i 1).val ∧ (i 1).val < win0_6.index t (1 : Fin 2) * 256 + 256
    omega

/-- The output array after the region: the host's layer of the arrays as the kernel found them. -/
theorem array (c : Dev nD) :
    (dat0 V c).arrAt 6 cfg0.N
      = Cert.Sage.layer (V c main_arg0) (V c main_v17) (V c main_v7) (V c main_arg3) (V c main_v18) (V c main_arg5) :=
  (dat0 V c).arrAt_eq_of_cover 6 _ (fun t _ => flushed_eq V c t) cover

end Cert.Sage.Layer1

end
-- ==== Proof.Layer2Array.lean ====
/-
  What layer 2's kernel leaves in its output array: the host's layer of the arrays the kernel finds.

  The kernel runs over 10 blocks of 5000 node rows. At a block it reads the block's rows of the features, of the
  neighbour sums and of the degree column, the two weight matrices and the bias row whole, and writes back the block's
  rows of max((s / max(cn, 1)) · Wl + x · Wr + b, 0). Row p of block t is row 5000·t + p of the arrays, so what block
  t writes back is block t of `Cert.Sage.layer` of the whole arrays (the law is `Cert.LibMeanLayer`'s), and the ten
  blocks tile the 50000 rows: the output array ends holding `Cert.Sage.layer` of the arrays as the kernel found them.
-/
import proofs.«136412_j13889924235783_1_alg».proof.Proof.Gen.KernelIdeal.Frame
import proofs.«136412_j13889924235783_1_alg».proof.Proof.LibMeanLayer
import proofs.«136412_j13889924235783_1_alg».proof.Proof.SageSpec
import Idealize.ShloMosaic.Lib.Pipeline.Value
import Idealize.ShloMosaic.Lib.ValueIdx

set_option maxRecDepth 16384

noncomputable section

namespace Cert.Sage.Layer2

open Idealize.ShloMosaic Idealize.ShloMosaic.TcCoe Idealize.ShloMosaic.ValueIdx Idealize.SL.Sem
open Cert.KernelIdeal Cert.KernelIdeal.Gen
open Idealize.ShloMosaic.Pipeline (Dat)

theorem hz : (![0, 0] : Fin 2 → Nat) = fun _ => 0 := funext fun a => by fin_cases a <;> rfl

/-- The block's payload at (p, q) is the host's layer at (P, q), when row p of each loaded block is row P of its array
    and the weights and the bias row are loaded whole. -/
theorem pay_apply (v0 : Vec Ideal S5000x1 .f32) (v4 v8 : Vec Ideal S5000x256 .f32) (v11 v13 : Vec Ideal S256x256 .f32)
    (v18 : Vec Ideal S1x256 .f32)
    (X S : FVec Ideal S50000x256 .f32) (Cn : FVec Ideal S50000x1 .f32) (Wl Wr : FVec Ideal S256x256 .f32)
    (Brow : FVec Ideal S1x256 .f32) (p : Fin 5000) (P : Fin 50000) (q : Fin 256)
    (hx : ∀ k : Fin 256, v8 (ix2 p k) = X (ix2 P k)) (hs : ∀ k : Fin 256, v4 (ix2 p k) = S (ix2 P k))
    (hc : v0 (ix2 p (0 : Fin 1)) = Cn (ix2 P (0 : Fin 1)))
    (hwl : ∀ k : Fin 256, v11 (ix2 k q) = Wl (ix2 k q)) (hwr : ∀ k : Fin 256, v13 (ix2 k q) = Wr (ix2 k q))
    (hb : v18 (ix2 (0 : Fin 1) q) = Brow (ix2 (0 : Fin 1) q)) :
    k1_pay1 (F := Ideal) v0 v4 v8 v11 v13 v18 (ix2 p q) = Cert.Sage.layer X S Cn Wl Brow Wr (ix2 P q) := by
  unfold k1_pay1 Cert.Sage.layer
  exact Cert.LibMeanLayer.mean_layer_block_apply (R := 5000) (K := 256) (C := 256) (N := 50000)
    dot_S5000x256_S256x256_S5000x256_1_0_0_1_n_n rfl rfl rfl rfl rfl rfl
    Cert.ReferenceIdeal.dot_S50000x256_S256x256_S50000x256_1_0_0_1_n_n rfl rfl rfl rfl rfl rfl
    0x3F800000#32 0x00000000#32 _ (shapeCast S5000x256 v8 _) (shapeCast S5000x256 v4 _) (shapeCast S5000x1 v0 _) v11 v13 (shapeCast S1x256 v18 _) _ _
    X S Cn Wl Wr Brow _ _ _ _ p P q
    (fun k => (congrFun (shapeCast_self v8 _) _).trans (hx k))
    (fun k => (congrFun (shapeCast_self v4 _) _).trans (hs k))
    ((congrFun (shapeCast_self v0 _) _).trans hc) hwl hwr
    ((congrFun (shapeCast_self v18 _) _).trans hb)

/-- The printed index maps, decided over the ten blocks: the three row-blocked inputs move with the output, the weights
    and the bias row stay at block (0, 0), and the output's block row is below 10. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every block row is some point's. -/
theorem idx_onto : ∀ q0 : Fin 10, ∃ t : Fin cfg1.N, win1_6.index t = ![q0.val, 0] :=
  (by decide +kernel : ∀ q0 : Fin 10, ∃ t : Fin grid1.N, win1_6.index t = ![q0.val, 0])

variable (V : (c : Dev nD) → (b : Ref sig .tc) → Buf (Elt Ideal) ((c : Thread nD τ).loc b))

/-- What point `t` writes back is block `t` of the host's layer of the arrays as the kernel finds them. -/
theorem flushed_eq (c : Dev nD) (t : Fin cfg1.N) :
    (dat1 V c).flushed 6 t = ((cfg1.win 6).blk t).view.read (Elt Ideal)
      (Cert.Sage.layer (V c main_v19) (V c main_v29) (V c main_v7) (V c main_arg6) (V c main_v30) (V c main_arg8)) := by
  show (cfg1.win 6).cut (grid1.coords t) ((dat1 V c).after 6 t) = _
  rw [after1_6]
  unfold out1_6
  rw [View.canon_unit_zero hz]
  simp only [View.ld_unit_zero (S := S5000x256) hz, View.ld_unit_zero (S := S5000x1) hz,
    View.ld_unit_zero (S := S256x256) hz, View.ld_unit_zero (S := S1x256) hz]
  obtain ⟨e00, e01, e10, e11, e20, e21, e30, e31, e40, e41, e50, e51, e6le, e61⟩ := idx_facts t
  funext y
  obtain ⟨p, q, rfl⟩ : ∃ (p : Fin 5000) (q : Fin 256), y = ix2 p q := ⟨y 0, y 1, eq_ix2 y⟩
  have hp : p.val < 5000 := p.isLt
  have hP : win1_6.index t (0 : Fin 2) * 5000 + p.val < 50000 := by omega
  have hemb : ((cfg1.win 6).blk t).view.emb (ix2 p q)
      = ix2 (⟨win1_6.index t (0 : Fin 2) * 5000 + p.val, hP⟩ : Fin 50000) q := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 256 + 1 * q.val = q.val; omega
  show k1_pay1 (iblk1 V c 2 t) (iblk1 V c 1 t) (iblk1 V c 0 t) (iblk1 V c 3 t) (iblk1 V c 5 t) (iblk1 V c 4 t) (ix2 p q)
    = Cert.Sage.layer (V c main_v19) (V c main_v29) (V c main_v7) (V c main_arg6) (V c main_v30) (V c main_arg8)
        (((cfg1.win 6).blk t).view.emb (ix2 p q))
  rw [hemb]
  refine pay_apply (iblk1 V c 2 t) (iblk1 V c 1 t) (iblk1 V c 0 t) (iblk1 V c 3 t) (iblk1 V c 5 t) (iblk1 V c 4 t)
    (V c main_v19) (V c main_v29) (V c main_v7) (V c main_arg6) (V c main_arg8) (V c main_v30) p ⟨_, hP⟩ q ?_ ?_ ?_ ?_ ?_ ?_
  · intro k
    show V c main_v19 (((cfg1.win 0).blk t).view.emb (ix2 p k)) = V c main_v19 (ix2 (⟨_, hP⟩ : Fin 50000) k)
    refine congrArg (V c main_v19) ?_
    funext a; apply Fin.ext
    match a with
    | ⟨0, _⟩ => show win1_0.index t (0 : Fin 2) * 5000 + 1 * p.val = win1_6.index t (0 : Fin 2) * 5000 + p.val; omega
    | ⟨1, _⟩ => show win1_0.index t (1 : Fin 2) * 256 + 1 * k.val = k.val; omega
  · intro k
    show V c main_v29 (((cfg1.win 1).blk t).view.emb (ix2 p k)) = V c main_v29 (ix2 (⟨_, hP⟩ : Fin 50000) k)
    refine congrArg (V c main_v29) ?_
    funext a; apply Fin.ext
    match a with
    | ⟨0, _⟩ => show win1_1.index t (0 : Fin 2) * 5000 + 1 * p.val = win1_6.index t (0 : Fin 2) * 5000 + p.val; omega
    | ⟨1, _⟩ => show win1_1.index t (1 : Fin 2) * 256 + 1 * k.val = k.val; omega
  · show V c main_v7 (((cfg1.win 2).blk t).view.emb (ix2 p (0 : Fin 1))) = V c main_v7 (ix2 (⟨_, hP⟩ : Fin 50000) (0 : Fin 1))
    refine congrArg (V c main_v7) ?_
    funext a; apply Fin.ext
    match a with
    | ⟨0, _⟩ => show win1_2.index t (0 : Fin 2) * 5000 + 1 * p.val = win1_6.index t (0 : Fin 2) * 5000 + p.val; omega
    | ⟨1, _⟩ => show win1_2.index t (1 : Fin 2) * 1 + 1 * 0 = 0; omega
  · intro k
    show V c main_arg6 (((cfg1.win 3).blk t).view.emb (ix2 k q)) = V c main_arg6 (ix2 k q)
    refine congrArg (V c main_arg6) ?_
    funext a; apply Fin.ext
    match a with
    | ⟨0, _⟩ => show win1_3.index t (0 : Fin 2) * 256 + 1 * k.val = k.val; omega
    | ⟨1, _⟩ => show win1_3.index t (1 : Fin 2) * 256 + 1 * q.val = q.val; omega
  · intro k
    show V c main_arg8 (((cfg1.win 5).blk t).view.emb (ix2 k q)) = V c main_arg8 (ix2 k q)
    refine congrArg (V c main_arg8) ?_
    funext a; apply Fin.ext
    match a with
    | ⟨0, _⟩ => show win1_5.index t (0 : Fin 2) * 256 + 1 * k.val = k.val; omega
    | ⟨1, _⟩ => show win1_5.index t (1 : Fin 2) * 256 + 1 * q.val = q.val; omega
  · show V c main_v30 (((cfg1.win 4).blk t).view.emb (ix2 (0 : Fin 1) q)) = V c main_v30 (ix2 (0 : Fin 1) q)
    refine congrArg (V c main_v30) ?_
    funext a; apply Fin.ext
    match a with
    | ⟨0, _⟩ => show win1_4.index t (0 : Fin 2) * 1 + 1 * 0 = 0; omega
    | ⟨1, _⟩ => show win1_4.index t (1 : Fin 2) * 256 + 1 * q.val = q.val; omega

/-- An index of the output array is in point `t`'s block iff each coordinate is in the block's range on its axis. -/
theorem mem_blk (t : Fin cfg1.N) (i : S50000x256.Idx) :
    i ∈ ((cfg1.win 6).blk t).view.set ↔ ∀ a : Fin 2, win1_6.index t a * S5000x256.size a ≤ (i a).val
      ∧ (i a).val < win1_6.index t a * S5000x256.size a + S5000x256.size a := by
  show i ∈ ((View.whole main_v31).slice (win1_6.rect t)).set ↔ _
  rw [View.set_slice_whole, Rect.mem_set_unit]
  exact Iff.rfl

/-- The ten blocks tile the array: row r is in block r / 5000. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 256 ≤ (i 1).val ∧ (i 1).val < win1_6.index t (1 : Fin 2) * 256 + 256
    omega

/-- The output array after the region: the host's layer of the arrays as the kernel found them. -/
theorem array (c : Dev nD) :
    (dat1 V c).arrAt 6 cfg1.N
      = Cert.Sage.layer (V c main_v19) (V c main_v29) (V c main_v7) (V c main_arg6) (V c main_v30) (V c main_arg8) :=
  (dat1 V c).arrAt_eq_of_cover 6 _ (fun t _ => flushed_eq V c t) cover

end Cert.Sage.Layer2

end
-- ==== Proof.KernelValue.lean ====
/-
  The kernel program computes the network.

  The buffers after each of the program's five stretches, read at the buffers the next stretch uses, as functions of
  the launch contents of the arguments:
    after the first host stretch: the edge rows, the neighbour sums of x, the degree column, the first bias as a row;
    after the first kernel: its output array is the first layer (`Cert.Sage.hidden`), by `Layer1.array`;
    after the second host stretch: the neighbour sums of the hidden features (same edge rows), the second bias row;
    after the second kernel: its output array is the second layer, by `Layer2.array`;
    after the last host stretch: the pooling and the last linear map of that array: `Cert.Sage.net`.
  A host reshape of a bias vector [256] to a row [1, 256] and the reference's broadcast of it to a row are one array.
-/
import proofs.«136412_j13889924235783_1_alg».proof.Proof.KernelRun
import proofs.«136412_j13889924235783_1_alg».proof.Proof.Layer1Array
import proofs.«136412_j13889924235783_1_alg».proof.Proof.Layer2Array
import proofs.«136412_j13889924235783_1_alg».proof.Proof.SageSpec
import Idealize.ShloMosaic.Lib.StableHlo.Run
import Idealize.ShloMosaic.Lib.Pipeline.Value
import Idealize.ShloMosaic.Lib.ValueIdx

set_option maxRecDepth 16384

noncomputable section

namespace Cert.Sage.Value

open Idealize.ShloMosaic Idealize.ShloMosaic.TcCoe Idealize.ShloMosaic.ValueIdx Idealize.SL.Sem
open Cert.KernelIdeal Cert.KernelIdeal.Gen

/-- A vector [256] cast to a row [1, 256] is the vector broadcast to that row. -/
theorem row_cast (b : FVec Ideal S256 .f32) (h : S256.ShapeCasts S1x256) : shapeCast S1x256 b h = Cert.Sage.rowOf b := by
  funext j
  obtain ⟨u, q, rfl⟩ : ∃ (u : Fin 1) (q : Fin 256), j = ix2 u q := ⟨j 0, j 1, eq_ix2 j⟩
  unfold Cert.Sage.rowOf
  rw [Cert.LibColumn.bcastInDim_b_1b_apply]
  exact shapeCast_apply b h _ _ (by
    have hu : u.val = 0 := by omega
    rw [Shape.rowMajor_val_two, Shape.rowMajor_val_one]
    show q.val = u.val * 256 + q.val
    rw [hu]; omega)

variable (m : (ℓ : Loc nD τ sig) → Buf (Elt Ideal) ℓ) (ρ : Dev nD → PrngReg) (c : Dev nD)

/-! ## After the first host stretch -/
theorem W1_arg0 : W1 m ρ c (Proc.devRef .tc main_arg0) = m ((c : Thread nD τ).loc main_arg0) := by
  show StableHlo.after hostOps0 _ _ = _
  after_results <;> rfl
theorem W1_arg2 : W1 m ρ c (Proc.devRef .tc main_arg2) = m ((c : Thread nD τ).loc main_arg2) := by
  show StableHlo.after hostOps0 _ _ = _
  after_results <;> rfl
theorem W1_arg3 : W1 m ρ c (Proc.devRef .tc main_arg3) = m ((c : Thread nD τ).loc main_arg3) := by
  show StableHlo.after hostOps0 _ _ = _
  after_results <;> rfl
theorem W1_arg5 : W1 m ρ c (Proc.devRef .tc main_arg5) = m ((c : Thread nD τ).loc main_arg5) := by
  show StableHlo.after hostOps0 _ _ = _
  after_results <;> rfl
theorem W1_arg6 : W1 m ρ c (Proc.devRef .tc main_arg6) = m ((c : Thread nD τ).loc main_arg6) := by
  show StableHlo.after hostOps0 _ _ = _
  after_results <;> rfl
theorem W1_arg7 : W1 m ρ c (Proc.devRef .tc main_arg7) = m ((c : Thread nD τ).loc main_arg7) := by
  show StableHlo.after hostOps0 _ _ = _
  after_results <;> rfl
theorem W1_arg8 : W1 m ρ c (Proc.devRef .tc main_arg8) = m ((c : Thread nD τ).loc main_arg8) := by
  show StableHlo.after hostOps0 _ _ = _
  after_results <;> rfl
theorem W1_arg9 : W1 m ρ c (Proc.devRef .tc main_arg9) = m ((c : Thread nD τ).loc main_arg9) := by
  show StableHlo.after hostOps0 _ _ = _
  after_results <;> rfl
theorem W1_arg10 : W1 m ρ c (Proc.devRef .tc main_arg10) = m ((c : Thread nD τ).loc main_arg10) := by
  show StableHlo.after hostOps0 _ _ = _
  after_results <;> rfl
theorem W1_v1 : W1 m ρ c (Proc.devRef .tc main_v1) = Cert.Sage.srcRow (m ((c : Thread nD τ).loc main_arg1)) := by
  show StableHlo.after hostOps0 _ _ = _
  after_results
  unfold Cert.Sage.srcRow
  rfl
theorem W1_v3 : W1 m ρ c (Proc.devRef .tc main_v3) = Cert.Sage.dstRow (m ((c : Thread nD τ).loc main_arg1)) := by
  show StableHlo.after hostOps0 _ _ = _
  after_results
  unfold Cert.Sage.dstRow
  rfl
set_option maxHeartbeats 4000000 in
theorem W1_v17 : W1 m ρ c (Proc.devRef .tc main_v17) = Cert.Sage.aggSum (m ((c : Thread nD τ).loc main_arg0)) (m ((c : Thread nD τ).loc main_arg1)) := by
  show StableHlo.after hostOps0 _ _ = _
  after_results
  unfold Cert.Sage.aggSum Cert.Sage.dstIx Cert.Sage.srcIx Cert.Sage.dstCol Cert.Sage.srcCol Cert.Sage.dstRow Cert.Sage.srcRow
  rfl
theorem W1_v7 : W1 m ρ c (Proc.devRef .tc main_v7) = Cert.Sage.cnt (m ((c : Thread nD τ).loc main_arg1)) := by
  show StableHlo.after hostOps0 _ _ = _
  after_results
  unfold Cert.Sage.cnt Cert.Sage.dstIx Cert.Sage.dstCol Cert.Sage.dstRow
  rfl
theorem W1_v18 : W1 m ρ c (Proc.devRef .tc main_v18) = Cert.Sage.rowOf (m ((c : Thread nD τ).loc main_arg4)) := by
  show StableHlo.after hostOps0 _ _ = _
  after_results
  exact row_cast _ _

/-! ## After the first kernel -/

theorem W2_v19 : W2 m ρ c (Proc.devRef .tc main_v19) = (Cert.Sage.hidden (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 6).trans ?_
  rw [Cert.Sage.Layer1.array (V1 m ρ) c]
  show Cert.Sage.layer (W1 m ρ c (Proc.devRef .tc main_arg0)) (W1 m ρ c (Proc.devRef .tc main_v17)) (W1 m ρ c (Proc.devRef .tc main_v7))
    (W1 m ρ c (Proc.devRef .tc main_arg3)) (W1 m ρ c (Proc.devRef .tc main_v18)) (W1 m ρ c (Proc.devRef .tc main_arg5)) = _
  rw [W1_arg0, W1_v17, W1_v7, W1_arg3, W1_v18, W1_arg5]
  rfl
theorem W2_v7 : W2 m ρ c (Proc.devRef .tc main_v7) = Cert.Sage.cnt (m ((c : Thread nD τ).loc main_arg1)) :=
  (W2_arr m ρ c 2).trans (((dat0 (V1 m ρ) c).arrAt_in 2 rfl _).trans ((A_eq0 (V1 m ρ) c 2).trans (W1_v7 m ρ c)))
theorem W2_v1 : W2 m ρ c (Proc.devRef .tc main_v1) = Cert.Sage.srcRow (m ((c : Thread nD τ).loc main_arg1)) :=
  (W2_of_ne m ρ c main_v1 (by decide)).trans (W1_v1 m ρ c)
theorem W2_v3 : W2 m ρ c (Proc.devRef .tc main_v3) = Cert.Sage.dstRow (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)

/-! ## After the second host stretch -/

theorem W3_arg2 : W3 m ρ c (Proc.devRef .tc main_arg2) = m ((c : Thread nD τ).loc main_arg2) := by
  show StableHlo.after hostOps1 _ _ = _
  after_results
  exact W2_arg2 m ρ c
theorem W3_arg6 : W3 m ρ c (Proc.devRef .tc main_arg6) = m ((c : Thread nD τ).loc main_arg6) := by
  show StableHlo.after hostOps1 _ _ = _
  after_results
  exact W2_arg6 m ρ c
theorem W3_arg8 : W3 m ρ c (Proc.devRef .tc main_arg8) = m ((c : Thread nD τ).loc main_arg8) := by
  show StableHlo.after hostOps1 _ _ = _
  after_results
  exact W2_arg8 m ρ c
theorem W3_arg9 : W3 m ρ c (Proc.devRef .tc main_arg9) = m ((c : Thread nD τ).loc main_arg9) := by
  show StableHlo.after hostOps1 _ _ = _
  after_results
  exact W2_arg9 m ρ c
theorem W3_arg10 : W3 m ρ c (Proc.devRef .tc main_arg10) = m ((c : Thread nD τ).loc main_arg10) := by
  show StableHlo.after hostOps1 _ _ = _
  after_results
  exact W2_arg10 m ρ c
theorem W3_v19 : W3 m ρ c (Proc.devRef .tc main_v19) = (Cert.Sage.hidden (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 _ _ = _
  after_results
  exact W2_v19 m ρ c
theorem W3_v7 : W3 m ρ c (Proc.devRef .tc main_v7) = Cert.Sage.cnt (m ((c : Thread nD τ).loc main_arg1)) := by
  show StableHlo.after hostOps1 _ _ = _
  after_results
  exact W2_v7 m ρ c
theorem W3_v30 : W3 m ρ c (Proc.devRef .tc main_v30) = Cert.Sage.rowOf (m ((c : Thread nD τ).loc main_arg7)) := by
  show StableHlo.after hostOps1 _ _ = _
  after_results
  rw [W2_arg7]
  exact row_cast _ _
theorem W3_v29 : W3 m ρ c (Proc.devRef .tc main_v29) = Cert.Sage.aggSum (Cert.Sage.hidden (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps1 _ _ = _
  after_results
  rw [W2_v19, W2_v1, W2_v3]
  unfold Cert.Sage.aggSum Cert.Sage.dstIx Cert.Sage.srcIx Cert.Sage.dstCol Cert.Sage.srcCol
  rfl

/-! ## After the second kernel -/

theorem W4_v31 : W4 m ρ c (Proc.devRef .tc main_v31) = (Cert.Sage.layer (Cert.Sage.hidden (m ((c : Thread nD τ).loc main_arg0)) (m ((c : Thread nD τ).loc main_arg1)) (m ((c : Thread nD τ).loc main_arg3)) (m ((c : Thread nD τ).loc main_arg4)) (m ((c : Thread nD τ).loc main_arg5))) (Cert.Sage.aggSum (Cert.Sage.hidden (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1))) (Cert.Sage.cnt (m ((c : Thread nD τ).loc main_arg1))) (m ((c : Thread nD τ).loc main_arg6)) (Cert.Sage.rowOf (m ((c : Thread nD τ).loc main_arg7))) (m ((c : Thread nD τ).loc main_arg8))) := by
  refine (W4_arr m ρ c 6).trans ?_
  rw [Cert.Sage.Layer2.array (V3 m ρ) c]
  show Cert.Sage.layer (W3 m ρ c (Proc.devRef .tc main_v19)) (W3 m ρ c (Proc.devRef .tc main_v29)) (W3 m ρ c (Proc.devRef .tc main_v7))
    (W3 m ρ c (Proc.devRef .tc main_arg6)) (W3 m ρ c (Proc.devRef .tc main_v30)) (W3 m ρ c (Proc.devRef .tc main_arg8)) = _
  rw [W3_v19, W3_v29, W3_v7, W3_arg6, W3_v30, W3_arg8]
theorem W4_arg2 : W4 m ρ c (Proc.devRef .tc main_arg2) = m ((c : Thread nD τ).loc main_arg2) :=
  (W4_of_ne m ρ c main_arg2 (by decide)).trans (W3_arg2 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)

/-! ## After the last host stretch -/

set_option maxHeartbeats 4000000 in
theorem W5_v46 : W5 m ρ c (Proc.devRef .tc main_v46) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps2 _ _ = _
  after_results
  rw [W4_v31, W4_arg2, W4_arg9, W4_arg10]
  unfold Cert.Sage.net Cert.Sage.pool
  rfl

/-- The kernel program's run: every weakly fair execution terminates with the result at the network of the launch
    contents of the arguments, and the arguments unchanged. -/
theorem run : θ_run defs (onTc (τ := τ) (main (F := Ideal))) ⟨m, fun _ => 0, ρ⟩ (fun r => ∀ c : Dev nD,
      r.2.mem ((c.tc : Thread nD τ).loc main_v46) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W5_v46 m ρ c), (h c).2⟩) (Cert.Sage.Run.run_result m ρ)

end Cert.Sage.Value

end
-- ==== Proof.SageRef.lean ====
/-
  The reference computes the network: its run's result, the composed term of its host operations over the argument
  arrays, is `Cert.Sage.net` of those arrays. Nothing is computed here: the term is the network's definition spelt
  out (both layers' aggregations share the edge positions and the degree column, which the reference writes out
  twice).
-/
import proofs.«136412_j13889924235783_1_alg».proof.Proof.SageSpec
import proofs.«136412_j13889924235783_1_alg».proof.Proof.Gen.ReferenceIdeal.Run

noncomputable section

namespace Cert.Sage

open Idealize.ShloMosaic Idealize.ShloMosaic.TcCoe Idealize.SL.Sem Cert.ReferenceIdeal Cert.ReferenceIdeal.Gen

set_option maxRecDepth 16384 in
/-- The reference run's result is the network of the launch contents of the arguments. -/
theorem ref_result (m : (ℓ : Loc nD τ sig) → Buf (Elt Ideal) ℓ) (c : Dev nD) :
    Cert.ReferenceIdeal.Value.res_main_v68 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v68 net hidden pool layer rowOf aggSum cnt srcIx dstIx srcCol dstCol srcRow dstRow
  rfl

end Cert.Sage

end
-- ==== Proof.lean ====
/-
  A two-layer mean-aggregating graph network with pooling, tiled, against its plain reference, on the extended reals.

  Both programs compute, from node features x [50000, 256], an edge list e [2, 800000], a node-to-graph map and the
  weights, the network `Cert.Sage.net` (Proof/SageSpec.lean): twice the layer
        h ↦ max( (Σ_{j → i} h_j / max(deg i, 1)) · Wl + b + h · Wr , 0 ),
  then the per-graph mean of the rows, a last linear map and a bias.
  The reference is that term as written (Proof/SageRef.lean). The kernel program keeps the gathers and scatter-adds on
  the host, computes the degree column once, and hands each layer's dense part — the division by the floored degree,
  the two matrix products into zero accumulators with operands passed through bfloat16, the bias, the rectifier — to a
  kernel over ten blocks of 5000 rows. On the extended reals a change of float format is the identity and a product
  into a zero accumulator is the sum over the contracted axis, so a block's rows of the kernel's result are the same
  rows of the host's layer (Proof/LibMeanLayer.lean: the kernel adds its three summands as (a + c) + b where the
  reference adds (a + b) + c, which commutativity and associativity of the extended reals' addition make equal; no
  finiteness is used), the ten blocks tile the rows (Proof/Layer1Array.lean, Proof/Layer2Array.lean), and the host
  stretches between and after the kernels are the reference's own operations (Proof/KernelValue.lean).
  The three frames: the two kernel programs' are the generated frame certificates, the reference's is its generated
  run with the result dropped. The idealization rewrote nothing, so `preserves` is trivial.
-/
import proofs.«136412_j13889924235783_1_alg».proof.Defs
import proofs.«136412_j13889924235783_1_alg».proof.Proof.Gen.Kernel
import proofs.«136412_j13889924235783_1_alg».proof.Proof.Gen.Kernel.Skeleton
import proofs.«136412_j13889924235783_1_alg».proof.Proof.Gen.Kernel.Launch
import proofs.«136412_j13889924235783_1_alg».proof.Proof.Gen.Kernel.Points
import proofs.«136412_j13889924235783_1_alg».proof.Proof.Gen.Kernel.Frame
import proofs.«136412_j13889924235783_1_alg».proof.Proof.Gen.KernelIdeal
import proofs.«136412_j13889924235783_1_alg».proof.Proof.Gen.KernelIdeal.Skeleton
import proofs.«136412_j13889924235783_1_alg».proof.Proof.Gen.KernelIdeal.Launch
import proofs.«136412_j13889924235783_1_alg».proof.Proof.Gen.KernelIdeal.Points
import proofs.«136412_j13889924235783_1_alg».proof.Proof.Gen.KernelIdeal.Frame
import proofs.«136412_j13889924235783_1_alg».proof.Proof.Gen.ReferenceIdeal
import proofs.«136412_j13889924235783_1_alg».proof.Proof.Gen.Pre_finite_inputs
import proofs.«136412_j13889924235783_1_alg».proof.Proof.Gen.ReferenceIdeal.Run
import proofs.«136412_j13889924235783_1_alg».proof.Proof.KernelValue
import proofs.«136412_j13889924235783_1_alg».proof.Proof.SageRef
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the arguments: the kernel program's by `Cert.Sage.Value.run`, the
    reference's by its generated run and `Cert.Sage.ref_result`, from memories that agree on the arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.Sage.Value.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.ref_result, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
